-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x1024 : Shape := ⟨3, ![8, 2048, 1024]⟩
abbrev S8x1024x2048 : Shape := ⟨3, ![8, 1024, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn_part1 {F : FTy → Type} [FloatOps F] (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  main_v18

def fn {F : FTy → Type} [FloatOps F] (main_arg0 : FVec F S8x4096x2048 .f32) (main_arg1 : FVec F S8x2048x1024 .f32) (main_arg2 : FVec F S8x1024x2048 .f32) (main_arg3 : FVec F S8x2048x1024 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x1024x2048 .f32 := Host.absf main_arg2
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_v13 main_v16
-- ==== Kernel.lean ====
abbrev S8x4096x2048 : Shape := ⟨3, ![8, 4096, 2048]⟩
abbrev S8x2048x1024 : Shape := ⟨3, ![8, 2048, 1024]⟩
abbrev S8x1024x2048 : Shape := ⟨3, ![8, 1024, 2048]⟩
abbrev S1x256x2048 : Shape := ⟨3, ![1, 256, 2048]⟩
abbrev S1x2048x1024 : Shape := ⟨3, ![1, 2048, 1024]⟩
abbrev S1x1024x2048 : Shape := ⟨3, ![1, 1024, 2048]⟩
abbrev S256x2048 : Shape := ⟨2, ![256, 2048]⟩
abbrev S2048x1024 : Shape := ⟨2, ![2048, 1024]⟩
abbrev S1024x2048 : Shape := ⟨2, ![1024, 2048]⟩
abbrev S256x1024 : Shape := ⟨2, ![256, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S8x2048x1024, .f32⟩
  | .hbm, ⟨2, _⟩ => ⟨S8x1024x2048, .f32⟩
  | .hbm, ⟨3, _⟩ => ⟨S8x2048x1024, .f32⟩
  | .hbm, ⟨4, _⟩ => ⟨S8x2048x1024, .bf16⟩
  | .hbm, ⟨5, _⟩ => ⟨S8x1024x2048, .bf16⟩
  | .hbm, ⟨6, _⟩ => ⟨S8x2048x1024, .bf16⟩
  | .hbm, ⟨7, _⟩ => ⟨S8x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x256x2048, .f32⟩
  | .local _ .vmem, ⟨9, _⟩ => ⟨S1x256x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S256x2048_S1x256x2048 : S256x2048.ShapeCasts S1x256x2048
  dot_S256x2048_S2048x1024_S256x1024_1_0_0_1_n_n_wf : DotDims.WF S256x2048 S2048x1024 S256x1024 [1] [0] [0] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x4096x2048.size a
  hwx0_0 : ∀ i : grid0.Coords, EltTy.bits .f32 = 32 ∨ (Rect.block (s := S8x4096x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .bf16 = 32 ∨ (Rect.block (s := S8x1024x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x4096x2048.size a
  hwx0_4 : ∀ i : grid0.Coords, EltTy.bits .f32 = 32 ∨ (Rect.block (s := S8x4096x2048) S1x256x2048.size (cc0_transform_4 i) (hinb0_4 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x1024 : Shape := ⟨3, ![8, 2048, 1024]⟩
abbrev S8x1024x2048 : Shape := ⟨3, ![8, 1024, 2048]⟩
abbrev S8x4096x1024 : Shape := ⟨3, ![8, 4096, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x1024, .f32⟩
  | .hbm, ⟨2, _⟩ => ⟨S8x1024x2048, .f32⟩
  | .hbm, ⟨3, _⟩ => ⟨S8x2048x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  dot_S8x4096x2048_S8x2048x1024_S8x4096x1024_2_1_1_2_0_0_wf : DotDims.WF S8x4096x2048 S8x2048x1024 S8x4096x1024 [2] [1] [1] [2] [0] [0]
  dot_S8x4096x1024_S8x1024x2048_S8x4096x2048_2_1_1_2_0_0_wf : DotDims.WF S8x4096x1024 S8x1024x2048 S8x4096x2048 [2] [1] [1] [2] [0] [0]

variable [Facts₀]

def dot_S8x4096x2048_S8x2048x1024_S8x4096x1024_2_1_1_2_0_0 : DotDims S8x4096x2048 S8x2048x1024 S8x4096x1024 where
  lhsContracting := [2]
  rhsContracting := [1]
  lhsNonContracting := [1]
  rhsNonContracting := [2]
  lhsBatch := [0]
  rhsBatch := [0]
  wf := dot_S8x4096x2048_S8x2048x1024_S8x4096x1024_2_1_1_2_0_0_wf
def dot_S8x4096x1024_S8x1024x2048_S8x4096x2048_2_1_1_2_0_0 : DotDims S8x4096x1024 S8x1024x2048 S8x4096x2048 where
  lhsContracting := [2]
  rhsContracting := [1]
  lhsNonContracting := [1]
  rhsNonContracting := [2]
  lhsBatch := [0]
  rhsBatch := [0]
  wf := dot_S8x4096x1024_S8x1024x2048_S8x4096x2048_2_1_1_2_0_0_wf

class Facts : Prop extends Facts₀ where

variable [Facts]
-- ==== Proof.Spec.lean ====
/-
  The gated feed-forward block of a bank of eight experts, as one function of its four argument arrays.

  For expert `e`, token `t` and hidden unit `h` write `s₁ = ∑ k, x[e,t,k] · w₁[e,k,h]` and `s₃ = ∑ k, x[e,t,k] · w₃[e,k,h]`
  (the token's two up-projections, 2048 terms each). The hidden activation is `(s₁ · σ(s₁)) · s₃`, where
  `σ(s) = 1 / (1 + e⁻ˢ)` is the logistic function, so that `s · σ(s)` is the SiLU of `s`; and the output entry
  `[e,t,d]` is the down-projection `∑ h, hidden[e,t,h] · w₂[e,h,d]` over the 1024 hidden units. Everything is read on
  the extended reals: the sums and products are theirs, and the logistic function is the ideal instance's
  (`1 / (1 + exp (-s))` with its conventions at the infinities).
-/
import Idealize.ShloMosaic.Lib.ValueIdx
import Idealize.ShloMosaic.PureOps.Ideal

noncomputable section

namespace Cert.Swiglu

open Idealize.ShloMosaic Idealize.ShloMosaic.ValueIdx

/-- The tokens' array, `[8, 4096, 2048]`: expert, token, model coordinate. -/
abbrev STok : Shape := ⟨3, ![8, 4096, 2048]⟩
/-- An up-projection's weights, `[8, 2048, 1024]`: expert, model coordinate, hidden unit. -/
abbrev SUp : Shape := ⟨3, ![8, 2048, 1024]⟩
/-- The down-projection's weights, `[8, 1024, 2048]`: expert, hidden unit, model coordinate. -/
abbrev SDown : Shape := ⟨3, ![8, 1024, 2048]⟩

/-- One entry of a token's up-projection: the sum over the 2048 model coordinates. -/
def proj (X : STok.Idx → EReal) (W : SUp.Idx → EReal) (e : Fin 8) (t : Fin 4096) (h : Fin 1024) : EReal :=
  ∑ k : Fin 2048, X (ix3 e t k) * W (ix3 e k h)

/-- The gate: `s · σ(s)`, times the second projection. -/
def gate (s₁ s₃ : EReal) : EReal := s₁ * Ideal.logistic s₁ * s₃

/-- The hidden activation of token `t` of expert `e` at unit `h`. -/
def hidden (X : STok.Idx → EReal) (W₁ W₃ : SUp.Idx → EReal) (e : Fin 8) (t : Fin 4096) (h : Fin 1024) : EReal :=
  gate (proj X W₁ e t h) (proj X W₃ e t h)

/-- The block's output array: the hidden activations projected down, the sum over the 1024 hidden units. -/
def out (X : STok.Idx → EReal) (W₁ : SUp.Idx → EReal) (W₂ : SDown.Idx → EReal) (W₃ : SUp.Idx → EReal) : STok.Idx → EReal :=
  fun i => ∑ h : Fin 1024, hidden X W₁ W₃ (i 0) (i 1) h * W₂ (ix3 (i 0) h (i 2))

/-- The output at an index given by its coordinates. -/
theorem out_apply (X : STok.Idx → EReal) (W₁ : SUp.Idx → EReal) (W₂ : SDown.Idx → EReal) (W₃ : SUp.Idx → EReal)
    (e : Fin 8) (t : Fin 4096) (d : Fin 2048) :
    out X W₁ W₂ W₃ (ix3 e t d) = ∑ h : Fin 1024, hidden X W₁ W₃ e t h * W₂ (ix3 e h d) := rfl

end Cert.Swiglu

end
-- ==== Proof.RefSpec.lean ====
/-
  The reference computes the specification.

  Its three batched `dot_general`s contract the last axis of the left operand with the middle axis of the right one,
  expert by expert, so each is the plain sum over that axis; its SiLU is spelt `s · (1 / (1 + exp (-s)))` with the
  literal `1.0` twice, and on the extended reals that quotient is the logistic function by definition once the
  literal is read as the number one.
-/
import proofs.«112101_j1992864825973_2_alg».proof.Proof.Gen.ReferenceIdeal.Read
import proofs.«112101_j1992864825973_2_alg».proof.Proof.Spec
import Idealize.ShloMosaic.Lib.IdealHost

noncomputable section

namespace Cert.Swiglu.Ref

open Idealize.ShloMosaic Idealize.ShloMosaic.ValueIdx Cert.ReferenceIdeal Cert.ReferenceIdeal.Read Cert.Swiglu

/-- An up-projection of the reference at `(e, t, h)`: the sum over the model coordinates. -/
theorem proj_v0 (x0 : STok.Idx → EReal) (x1 : SUp.Idx → EReal) (e : Fin 8) (t : Fin 4096) (h : Fin 1024) :
    val_main_v0 (F := Ideal) x0 x1 (ix3 e t h) = proj x0 x1 e t h := by
  rw [val_main_v0_apply]
  refine Finset.sum_congr rfl fun k _ => ?_
  have el : lidx_main_v0 (ix3 e t h) k = ix3 e t k :=
    funext fun a => Fin.ext (by match a with | ⟨0, _⟩ => rfl | ⟨1, _⟩ => rfl | ⟨2, _⟩ => rfl)
  have er : ridx_main_v0 (ix3 e t h) k = ix3 e k h :=
    funext fun a => Fin.ext (by match a with | ⟨0, _⟩ => rfl | ⟨1, _⟩ => rfl | ⟨2, _⟩ => rfl)
  rw [el, er]

/-- The other up-projection, the same operation on the third weight array. -/
theorem proj_v2 (x0 : STok.Idx → EReal) (x3 : SUp.Idx → EReal) (e : Fin 8) (t : Fin 4096) (h : Fin 1024) :
    val_main_v2 (F := Ideal) x0 x3 (ix3 e t h) = proj x0 x3 e t h := by
  rw [val_main_v2_apply]
  refine Finset.sum_congr rfl fun k _ => ?_
  have el : lidx_main_v2 (ix3 e t h) k = ix3 e t k :=
    funext fun a => Fin.ext (by match a with | ⟨0, _⟩ => rfl | ⟨1, _⟩ => rfl | ⟨2, _⟩ => rfl)
  have er : ridx_main_v2 (ix3 e t h) k = ix3 e k h :=
    funext fun a => Fin.ext (by match a with | ⟨0, _⟩ => rfl | ⟨1, _⟩ => rfl | ⟨2, _⟩ => rfl)
  rw [el, er]

/-- The reference's gated product at `(e, t, h)` is the hidden activation: its quotient `1 / (1 + exp (-s))` is the
    logistic function. -/
theorem hidden_v3 (x0 : STok.Idx → EReal) (x1 x3 : SUp.Idx → EReal) (e : Fin 8) (t : Fin 4096) (h : Fin 1024) :
    val_main_v3 (F := Ideal) x0 x1 x3 (ix3 e t h) = hidden x0 x1 x3 e t h := by
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, proj_v0, proj_v2]
  show proj x0 x1 e t h * Ideal.div (Ideal.ofBits .f32 0x3F800000#32)
      (Ideal.ofBits .f32 0x3F800000#32 + Ideal.exp (-(proj x0 x1 e t h))) * proj x0 x3 e t h = _
  rw [Ideal.ofBits_one_f32]
  rfl

/-- The reference's result array is the specification's output. -/
theorem result_eq (x0 : STok.Idx → EReal) (x1 : SUp.Idx → EReal) (x2 : SDown.Idx → EReal) (x3 : SUp.Idx → EReal) :
    val_main_v4 (F := Ideal) x0 x1 x2 x3 = out x0 x1 x2 x3 := by
  funext i
  obtain ⟨e, t, d, rfl⟩ : ∃ (e : Fin 8) (t : Fin 4096) (d : Fin 2048), i = ix3 e t d := ⟨i 0, i 1, i 2, eq_ix3 i⟩
  rw [val_main_v4_apply, out_apply]
  refine Finset.sum_congr rfl fun h _ => ?_
  have el : lidx_main_v4 (ix3 e t d) h = ix3 e t h :=
    funext fun a => Fin.ext (by match a with | ⟨0, _⟩ => rfl | ⟨1, _⟩ => rfl | ⟨2, _⟩ => rfl)
  have er : ridx_main_v4 (ix3 e t d) h = ix3 e h d :=
    funext fun a => Fin.ext (by match a with | ⟨0, _⟩ => rfl | ⟨1, _⟩ => rfl | ⟨2, _⟩ => rfl)
  rw [el, er, hidden_v3]

end Cert.Swiglu.Ref

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.Body.lean ====
/-
  What the kernel's body computes on one tile, entry by entry.

  The body loads a tile of 256 tokens of one expert, `[1, 256, 2048]`, and that expert's three weight matrices, drops the
  leading unit axis of each, multiplies the tile by the two up matrices into zero accumulators (`s₁`, `s₃`: plain
  256 × 2048 by 2048 × 1024 products), forms `(s₁ · σ(s₁)) · s₃`, multiplies that by the down matrix (a plain
  256 × 1024 by 1024 × 2048 product into a zero accumulator) and puts the unit axis back. The changes of float format in
  between are the identity on the extended reals. So entry `(0, p, q)` of the stored tile is the sum over the hidden
  units `h` of the gate of row `p`'s two projections at `h`, times the down matrix at `(h, q)`.
-/
import proofs.«112101_j1992864825973_2_alg».proof.Proof.Gen.KernelIdeal.Skeleton
import proofs.«112101_j1992864825973_2_alg».proof.Proof.Spec
import proofs.«112101_j1992864825973_2_alg».proof.Proof.LibPlainDot
import Idealize.ShloMosaic.Lib.ValueLayout

noncomputable section

namespace Cert.Swiglu.Body

open Idealize.ShloMosaic Idealize.ShloMosaic.ValueIdx Cert.KernelIdeal Cert.KernelIdeal.Gen Cert.Swiglu

/-- Row `p` of a token tile projected through an up matrix, at hidden unit `h`. -/
def tileProj (x : (⟨3, ![1, 256, 2048]⟩ : Shape).Idx → EReal) (w : (⟨3, ![1, 2048, 1024]⟩ : Shape).Idx → EReal)
    (p : Fin 256) (h : Fin 1024) : EReal :=
  ∑ k : Fin 2048, x (ix3 (0 : Fin 1) p k) * w (ix3 (0 : Fin 1) k h)

/-- The logistic function of an array, read at an entry. -/
theorem logistic_apply {s : Shape} {φ : FTy} (a : FVec Ideal s φ) (i : s.Idx) : logistic a i = Ideal.logistic (a i) := rfl

/-- An up-projection of the body at `(p, h)`: the matrix product into the zero accumulator is the plain sum, the unit
    axes dropped and the format change the identity. -/
theorem up_apply (x : FVec Ideal S1x256x2048 .f32) (w : FVec Ideal S1x2048x1024 .bf16)
    (hx : S1x256x2048.ShapeCasts S256x2048) (hw : S1x2048x1024.ShapeCasts S2048x1024) (hb : FTy.bits .bf16 < FTy.bits .f32)
    (p : Fin 256) (h : Fin 1024) :
    matmul (F := Ideal) dot_S256x2048_S2048x1024_S256x1024_1_0_0_1_n_n none
      (truncf .bf16 (shapeCast S256x2048 x hx) hb) (shapeCast S2048x1024 w hw)
      (constant S256x1024 .f32 0x00000000#32) (ix2 p h) = tileProj x w p h := by
  show FloatOps.matmul (DotDims.plain 256 2048 1024) none _ _ (constant ⟨2, ![256, 1024]⟩ .f32 0x00000000#32) (ix2 p h) = _
  rw [PlainDot.matmul_zero_apply]
  refine Finset.sum_congr rfl fun k _ => ?_
  rw [truncf_apply, shapeCast_1ab_ab_apply, shapeCast_1ab_ab_apply]

/-- The down-projection of the body at `(p, q)`: the sum over the hidden units. -/
theorem down_apply (g : FVec Ideal S256x1024 .f32) (w : FVec Ideal S1x1024x2048 .bf16)
    (hw : S1x1024x2048.ShapeCasts S1024x2048) (hb : FTy.bits .bf16 < FTy.bits .f32) (p : Fin 256) (q : Fin 2048) :
    matmul (F := Ideal) dot_S256x1024_S1024x2048_S256x2048_1_0_0_1_n_n none
      (truncf .bf16 g hb) (shapeCast S1024x2048 w hw)
      (constant S256x2048 .f32 0x00000000#32) (ix2 p q) = ∑ h : Fin 1024, g (ix2 p h) * w (ix3 (0 : Fin 1) h q) := by
  show FloatOps.matmul (DotDims.plain 256 1024 2048) none _ _ (constant ⟨2, ![256, 2048]⟩ .f32 0x00000000#32) (ix2 p q) = _
  rw [PlainDot.matmul_zero_apply]
  refine Finset.sum_congr rfl fun h _ => ?_
  rw [truncf_apply, shapeCast_1ab_ab_apply]

/-- THE STORED TILE at `(u, p, q)`: the gated projections of row `p`, projected down to coordinate `q`. -/
theorem pay_apply (x0 : Vec Ideal S1x256x2048 .f32) (x1 x2 : Vec Ideal S1x2048x1024 .bf16) (x3 : Vec Ideal S1x1024x2048 .bf16)
    (u : Fin 1) (p : Fin 256) (q : Fin 2048) :
    k0_pay1 (F := Ideal) x0 x1 x2 x3 (ix3 u p q)
      = ∑ h : Fin 1024, gate (tileProj x0 x1 p h) (tileProj x0 x2 p h) * x3 (ix3 (0 : Fin 1) h q) := by
  unfold k0_pay1
  rw [shapeCast_ab_1ab_apply, down_apply]
  refine Finset.sum_congr rfl fun h _ => ?_
  rw [mulf_apply, mulf_apply, logistic_apply, up_apply, up_apply]
  rfl

/-- THE STORED TILE IS A BLOCK OF THE SPECIFICATION. Suppose the loaded token tile holds, in row `p`, the tokens' array at
    the expert and token of the array index `i`, and the three loaded weight blocks hold that expert's matrices. Then
    the stored tile at `(u, p, q)` is the specification's output at `i`, where `q` is `i`'s model coordinate. -/
theorem tile_eq (X : STok.Idx → EReal) (W₁ : SUp.Idx → EReal) (W₂ : SDown.Idx → EReal) (W₃ : SUp.Idx → EReal)
    (x0 : FVec Ideal S1x256x2048 .f32) (x1 x2 : FVec Ideal S1x2048x1024 .bf16) (x3 : FVec Ideal S1x1024x2048 .bf16)
    (u : Fin 1) (p : Fin 256) (q : Fin 2048) (i : STok.Idx)
    (h0 : ∀ k : Fin 2048, x0 (ix3 (0 : Fin 1) p k) = X (ix3 (i 0) (i 1) k))
    (h1 : ∀ (k : Fin 2048) (h : Fin 1024), x1 (ix3 (0 : Fin 1) k h) = W₁ (ix3 (i 0) k h))
    (h2 : ∀ (k : Fin 2048) (h : Fin 1024), x2 (ix3 (0 : Fin 1) k h) = W₃ (ix3 (i 0) k h))
    (h3 : ∀ h : Fin 1024, x3 (ix3 (0 : Fin 1) h q) = W₂ (ix3 (i 0) h (i 2))) :
    k0_pay1 (F := Ideal) x0 x1 x2 x3 (ix3 u p q) = out X W₁ W₂ W₃ i := by
  rw [pay_apply]
  show _ = ∑ h : Fin 1024, hidden X W₁ W₃ (i 0) (i 1) h * W₂ (ix3 (i 0) h (i 2))
  refine Finset.sum_congr rfl fun h _ => ?_
  rw [h3 h]
  unfold hidden tileProj proj
  simp only [h0, h1, h2]

end Cert.Swiglu.Body

end
-- ==== Proof.Tiles.lean ====
/-
  From tiles to the whole array.

  The grid has one point per (expert, token tile): 8 × 16 points. At point `(e, b)` the tokens' window and the output
  window are at block `(e, b, 0)` — tokens `256·b … 256·b + 255` of expert `e`, all 2048 model coordinates — and the
  three weight windows at block `(e, 0, 0)`, that expert's whole matrices. The weight arrays the windows stage are the
  argument arrays after a change of float format, which is the identity on the extended reals. So what each point
  writes back is its block of the specification's output; the 128 blocks tile the `[8, 4096, 2048]` array (the block
  that holds index `i` is the one of expert `i₀` and tile `i₁ / 256`), and the array ends holding the specification.
-/
import proofs.«112101_j1992864825973_2_alg».proof.Proof.Gen.KernelIdeal.Value
import proofs.«112101_j1992864825973_2_alg».proof.Proof.Body
import Idealize.ShloMosaic.Lib.StableHlo.Run

noncomputable section

namespace Cert.Swiglu.Tiles

open Cert.KernelIdeal Cert.KernelIdeal.Gen Idealize.ShloMosaic Idealize.ShloMosaic.TcCoe Idealize.SL.Sem
open Idealize.ShloMosaic.ValueIdx Idealize.ShloMosaic.StableHlo Cert.Swiglu
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The printed index maps, decided over the 128 grid points: the tokens' window moves with the output window, the
    weight windows follow its expert and stay at the origin on their other axes, and the output's block indices are an
    expert, a token tile and zero. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 15 ∧ win0_4.index t (2 : Fin 3) = 0 :=
  (by decide +kernel : ∀ t : Fin grid0.N, _)

/-- Every (expert, token tile) is some point's output block. -/
theorem idx_onto : ∀ (e : Fin 8) (b : Fin 16), ∃ t : Fin cfg0.N, win0_4.index t = ![e.val, b.val, 0] :=
  (by decide +kernel : ∀ (e : Fin 8) (b : Fin 16), ∃ t : Fin grid0.N, win0_4.index t = ![e.val, b.val, 0])

/-! ## The weight arrays as the region finds them -/

/-- The first staged weight array is the second argument: the host's change of format is the identity. -/
theorem V_up1 (c : Dev nD) : (V m c main_v0 : S8x2048x1024.Idx → EReal) = m ((c : Thread nD τ).loc main_arg1) := by
  dsimp only [Gen.V, Gen.hostOps0]; after_results; rfl
/-- The down matrix's staged array is the third argument. -/
theorem V_down (c : Dev nD) : (V m c main_v1 : S8x1024x2048.Idx → EReal) = m ((c : Thread nD τ).loc main_arg2) := by
  dsimp only [Gen.V, Gen.hostOps0]; after_results; rfl
/-- The other up matrix's staged array is the fourth argument. -/
theorem V_up3 (c : Dev nD) : (V m c main_v2 : S8x2048x1024.Idx → EReal) = m ((c : Thread nD τ).loc main_arg3) := by
  dsimp only [Gen.V, Gen.hostOps0]; after_results; rfl

/-! ## What a point writes back -/

/-- WHAT POINT `t` WRITES BACK is block `t` of the specification's output of the arrays the region finds. -/
theorem flushed_eq (c : Dev nD) (t : Fin cfg0.N) :
    (dats m 0 c).flushed 4 t = ((cfg0.win 4).blk t).view.read (Elt Ideal)
      (out (V m c main_arg0) (V m c main_v0) (V m c main_v1) (V m c main_v2)) := by
  rw [Cert.KernelIdeal.Value.flushed4]
  unfold out0_4
  rw [View.canon_unit_zero origin]
  simp only [View.ld_unit_zero (S := S1x256x2048) origin, View.ld_unit_zero (S := S1x2048x1024) origin,
    View.ld_unit_zero (S := S1x1024x2048) origin]
  obtain ⟨e00, e01, e02, e10, e11, e12, e20, e21, e22, e30, e31, e32, -, -, e42⟩ := idx_facts t
  refine funext fun (y : S1x256x2048.Idx) => ?_
  obtain ⟨u, p, q, rfl⟩ : ∃ (u : Fin 1) (p : Fin 256) (q : Fin 2048), y = ix3 u p q := ⟨y 0, y 1, y 2, eq_ix3 y⟩
  have hu : u.val = 0 := by omega
  show k0_pay1 (F := Ideal) (iblk m c 0 t) (iblk m c 1 t) (iblk m c 2 t) (iblk m c 3 t) (ix3 u p q)
    = out (V m c main_arg0) (V m c main_v0) (V m c main_v1) (V m c main_v2) (((cfg0.win 4).blk t).view.emb (ix3 u p q))
  refine Body.tile_eq (V m c main_arg0) (V m c main_v0) (V m c main_v1) (V m c main_v2)
    (iblk m c 0 t) (iblk m c 1 t) (iblk m c 2 t) (iblk m c 3 t) u p q (((cfg0.win 4).blk t).view.emb (ix3 u p q)) ?_ ?_ ?_ ?_
  · intro k
    show V m c main_arg0 (((cfg0.win 0).blk t).view.emb (ix3 (0 : Fin 1) p k)) = V m c main_arg0 _
    refine congrArg _ (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 256 + 1 * p.val = win0_4.index t (1 : Fin 3) * 256 + 1 * p.val; omega
    | ⟨2, _⟩ => show win0_0.index t (2 : Fin 3) * 2048 + 1 * k.val = k.val; omega
  · intro k h
    show V m c main_v0 (((cfg0.win 1).blk t).view.emb (ix3 (0 : Fin 1) k h)) = V m c main_v0 _
    refine congrArg _ (funext fun a => Fin.ext ?_)
    match a with
    | ⟨0, _⟩ => show win0_1.index t (0 : Fin 3) * 1 + 1 * 0 = win0_4.index t (0 : Fin 3) * 1 + 1 * u.val; omega
    | ⟨1, _⟩ => show win0_1.index t (1 : Fin 3) * 2048 + 1 * k.val = k.val; omega
    | ⟨2, _⟩ => show win0_1.index t (2 : Fin 3) * 1024 + 1 * h.val = h.val; omega
  · intro k h
    show V m c main_v2 (((cfg0.win 2).blk t).view.emb (ix3 (0 : Fin 1) k h)) = V m c main_v2 _
    refine congrArg _ (funext fun a => Fin.ext ?_)
    match a with
    | ⟨0, _⟩ => show win0_2.index t (0 : Fin 3) * 1 + 1 * 0 = win0_4.index t (0 : Fin 3) * 1 + 1 * u.val; omega
    | ⟨1, _⟩ => show win0_2.index t (1 : Fin 3) * 2048 + 1 * k.val = k.val; omega
    | ⟨2, _⟩ => show win0_2.index t (2 : Fin 3) * 1024 + 1 * h.val = h.val; omega
  · intro h
    show V m c main_v1 (((cfg0.win 3).blk t).view.emb (ix3 (0 : Fin 1) h q)) = V m c main_v1 _
    refine congrArg _ (funext fun a => Fin.ext ?_)
    match a with
    | ⟨0, _⟩ => show win0_3.index t (0 : Fin 3) * 1 + 1 * 0 = win0_4.index t (0 : Fin 3) * 1 + 1 * u.val; omega
    | ⟨1, _⟩ => show win0_3.index t (1 : Fin 3) * 1024 + 1 * h.val = h.val; omega
    | ⟨2, _⟩ => show win0_3.index t (2 : Fin 3) * 2048 + 1 * q.val = win0_4.index t (2 : Fin 3) * 2048 + 1 * q.val; omega

/-! ## The blocks tile the array -/

/-- An index of the array is in point `t`'s block iff each coordinate is in the block's range on its axis. -/
theorem mem_blk (t : Fin cfg0.N) (i : S8x4096x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v3).slice (win0_4.rect t)).set ↔ _
  rw [View.set_slice_whole, Rect.mem_set_unit]
  exact Iff.rfl

/-- Every index of the output array is in the block of its expert and token tile. -/
theorem cover (i : S8x4096x2048.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- THE OUTPUT ARRAY after the run is the specification's output of the four argument arrays. -/
theorem final (c : Dev nD) : (dats m 0 c).arrAt 4 cfg0.N
    = out (m ((c : Thread nD τ).loc main_arg0)) (m ((c : Thread nD τ).loc main_arg1))
        (m ((c : Thread nD τ).loc main_arg2)) (m ((c : Thread nD τ).loc main_arg3)) := by
  rw [(dats m 0 c).arrAt_eq_of_cover 4 (out (V m c main_arg0) (V m c main_v0) (V m c main_v1) (V m c main_v2))
    (fun t _ => flushed_eq m c t) cover, V_main_arg0, V_up1, V_down, V_up3]

/-- The kernel's run: the result array ends at the specification's output, the arguments unchanged. -/
theorem run : θ_run defs (onTc (τ := τ) (main (F := Ideal))) ⟨m, fun _ => 0, ρ⟩ fun r => ∀ c : Dev nD,
      r.2.mem ((c : Thread nD τ).loc main_v3)
        = out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Swiglu.Tiles

end
-- ==== Proof.lean ====
/-
  A bank of eight experts' gated feed-forward block, `out = (silu(x·w₁) · (x·w₃)) · w₂`, as a tiled kernel and as three
  batched matrix products: the two compute one array on the extended reals.

  The kernel visits one (expert, 256-token tile) per grid point, multiplies the tile by the expert's two up matrices,
  gates `s₁ · σ(s₁) · s₃` with the logistic function `σ`, and multiplies by the down matrix; the weights pass through a
  narrower float format on the way, which is the identity on the extended reals. The reference contracts the same axes
  expert by expert and spells the SiLU `s · (1 / (1 + exp (-s)))`, which is `s · σ(s)` by the logistic function's
  definition. Both are the one function `Cert.Swiglu.out` of the four argument arrays (Proof/Spec.lean): the reference
  by reading its operations at an index (Proof/RefSpec.lean), the kernel tile by tile (Proof/Body.lean: one stored tile,
  entry by entry; Proof/Tiles.lean: each point writes its block of `out`, and the 128 blocks tile the array). No sum is
  reordered and no factor moved, so nothing is asked of the inputs beyond what the programs' runs need.
  No operation of the kernel is rewritten for its reading on the extended reals, so the idealization claim is the
  trivial one.
-/
import proofs.«112101_j1992864825973_2_alg».proof.Defs
import proofs.«112101_j1992864825973_2_alg».proof.Proof.Gen.Kernel
import proofs.«112101_j1992864825973_2_alg».proof.Proof.Gen.Kernel.Skeleton
import proofs.«112101_j1992864825973_2_alg».proof.Proof.Gen.Kernel.Launch
import proofs.«112101_j1992864825973_2_alg».proof.Proof.Gen.Kernel.Points
import proofs.«112101_j1992864825973_2_alg».proof.Proof.Gen.Kernel.Frame
import proofs.«112101_j1992864825973_2_alg».proof.Proof.Gen.KernelIdeal
import proofs.«112101_j1992864825973_2_alg».proof.Proof.Gen.KernelIdeal.Skeleton
import proofs.«112101_j1992864825973_2_alg».proof.Proof.Gen.KernelIdeal.Launch
import proofs.«112101_j1992864825973_2_alg».proof.Proof.Gen.KernelIdeal.Points
import proofs.«112101_j1992864825973_2_alg».proof.Proof.Gen.KernelIdeal.Frame
import proofs.«112101_j1992864825973_2_alg».proof.Proof.Gen.ReferenceIdeal
import proofs.«112101_j1992864825973_2_alg».proof.Proof.Gen.Pre_finite_inputs
import proofs.«112101_j1992864825973_2_alg».proof.Proof.Gen.KernelIdeal.Value
import proofs.«112101_j1992864825973_2_alg».proof.Proof.Gen.ReferenceIdeal.Run
import proofs.«112101_j1992864825973_2_alg».proof.Proof.Gen.ReferenceIdeal.Read
import proofs.«112101_j1992864825973_2_alg».proof.Proof.RefSpec
import proofs.«112101_j1992864825973_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to restate. -/
theorem preserves : Cert.preserves_Kernel_KernelIdeal := trivial

/-- On the extended reals the kernel's result array and the reference's, from memories that agree on the four
    arguments, are both the specification's output of those arguments. -/
theorem algebraic : Cert.algebraic_KernelIdeal_ReferenceIdeal := by
  intro m ρ m' ρ' _ hagree
  refine ⟨fun c => Cert.Swiglu.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Swiglu.Tiles.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.Swiglu.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
